-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32x64 : Shape := ⟨3, ![2048, 32, 64]⟩
abbrev S_ : Shape := ⟨0, ![]⟩

class Facts : Prop where
  bcast_S_S2048x32x64 : S_.BroadcastsInDim S2048x32x64 (![] : Fin 0 → Fin S2048x32x64.rank)
  reducesTo_S2048x32x64_S_d0_1_2 : S2048x32x64.ReducesTo [0, 1, 2] S_
  h_S_ : 0 < S_.numel

variable [Facts]

def fn {F : FTy → Type} [FloatOps F] (main_arg0 : FVec F S2048x32x64 .f32) (main_arg1 : FVec F S2048x32x64 .f32) (main_arg2 : FVec F S2048x32x64 .f32) : IVec S_ 1 :=
  let main_v0 : FVec F S2048x32x64 .f32 := Host.absf main_arg0
  let main_cst : FVec F S_ .f32 := constant S_ .f32 0x7F800000#32
  let main_v1 : FVec F S2048x32x64 .f32 := broadcastInDim S2048x32x64 ![] bcast_S_S2048x32x64 main_cst
  let main_v2 : IVec S2048x32x64 1 := cmpf .olt main_v0 main_v1
  let main_c : IVec S_ 1 := constantI S_ 1 1#1
  let main_v3 : IVec S_ 1 := (fun x v => Host.reduce IntOp.andi x v reducesTo_S2048x32x64_S_d0_1_2 h_S_) main_v2 main_c
  let main_v4 : FVec F S2048x32x64 .f32 := Host.absf main_arg1
  let main_cst_0 : FVec F S_ .f32 := constant S_ .f32 0x7F800000#32
  let main_v5 : FVec F S2048x32x64 .f32 := broadcastInDim S2048x32x64 ![] bcast_S_S2048x32x64 main_cst_0
  let main_v6 : IVec S2048x32x64 1 := cmpf .olt main_v4 main_v5
  let main_c_1 : IVec S_ 1 := constantI S_ 1 1#1
  let main_v7 : IVec S_ 1 := (fun x v => Host.reduce IntOp.andi x v reducesTo_S2048x32x64_S_d0_1_2 h_S_) main_v6 main_c_1
  let main_v8 : IVec S_ 1 := andi main_v3 main_v7
  let main_v9 : FVec F S2048x32x64 .f32 := Host.absf main_arg2
  let main_cst_2 : FVec F S_ .f32 := constant S_ .f32 0x7F800000#32
  let main_v10 : FVec F S2048x32x64 .f32 := broadcastInDim S2048x32x64 ![] bcast_S_S2048x32x64 main_cst_2
  let main_v11 : IVec S2048x32x64 1 := cmpf .olt main_v9 main_v10
  let main_c_3 : IVec S_ 1 := constantI S_ 1 1#1
  let main_v12 : IVec S_ 1 := (fun x v => Host.reduce IntOp.andi x v reducesTo_S2048x32x64_S_d0_1_2 h_S_) main_v11 main_c_3
  let main_v13 : IVec S_ 1 := andi main_v8 main_v12
  main_v13
-- ==== Kernel.lean ====
abbrev S2048x32x64 : Shape := ⟨3, ![2048, 32, 64]⟩
abbrev S32x2048x64 : Shape := ⟨3, ![32, 2048, 64]⟩
abbrev S_ : Shape := ⟨0, ![]⟩
abbrev S32x2048x2048 : Shape := ⟨3, ![32, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 15
  | .vmem => 10
  | .smem => 0
  | _ => 0

abbrev bufTy : (tb : Table) → Fin (tcTables nBuf tb) → BufTy
  | .hbm, ⟨0, _⟩ => ⟨S2048x32x64, .f32⟩
  | .hbm, ⟨1, _⟩ => ⟨S2048x32x64, .f32⟩
  | .hbm, ⟨2, _⟩ => ⟨S2048x32x64, .f32⟩
  | .hbm, ⟨3, _⟩ => ⟨S32x2048x64, .f32⟩
  | .hbm, ⟨4, _⟩ => ⟨S_, .f32⟩
  | .hbm, ⟨5, _⟩ => ⟨S32x2048x64, .f32⟩
  | .hbm, ⟨6, _⟩ => ⟨S32x2048x64, .f32⟩
  | .hbm, ⟨7, _⟩ => ⟨S32x2048x64, .f32⟩
  | .hbm, ⟨8, _⟩ => ⟨S32x2048x64, .f32⟩
  | .hbm, ⟨9, _⟩ => ⟨S32x2048x64, .bf16⟩
  | .hbm, ⟨10, _⟩ => ⟨S32x2048x64, .bf16⟩
  | .hbm, ⟨11, _⟩ => ⟨S32x2048x64, .bf16⟩
  | .hbm, ⟨12, _⟩ => ⟨S32x2048x64, .f32⟩
  | .hbm, ⟨13, _⟩ => ⟨S32x2048x2048, .f32⟩
  | .hbm, ⟨14, _⟩ => ⟨S2048x32x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | _, _ => ⟨S2048x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S2048x32x64_S32x2048x64_1_0_2 : S2048x32x64.Transposes [1, 0, 2] S32x2048x64
  bcast_S_S32x2048x64 : S_.BroadcastsInDim S32x2048x64 (![] : Fin 0 → Fin S32x2048x64.rank)
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x64_S1x1024x64 : S1024x64.ShapeCasts S1x1024x64
  transposes_S32x2048x64_S2048x32x64_1_0_2 : S32x2048x64.Transposes [1, 0, 2] S2048x32x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .bf16 = 32 ∨ (Rect.block (s := S32x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S32x2048x2048.size a
  hwx0_4 : ∀ i : grid0.Coords, EltTy.bits .f32 = 32 ∨ (Rect.block (s := S32x2048x2048) S1x1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v5) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x32x64 : Shape := ⟨3, ![2048, 32, 64]⟩
abbrev S32x2048x64 : Shape := ⟨3, ![32, 2048, 64]⟩
abbrev S_ : Shape := ⟨0, ![]⟩
abbrev S32x2048x2048 : Shape := ⟨3, ![32, 2048, 2048]⟩
abbrev S32x2048 : Shape := ⟨2, ![32, 2048]⟩
abbrev S32x2048x1 : Shape := ⟨3, ![32, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x32x64, .f32⟩
  | .hbm, ⟨1, _⟩ => ⟨S2048x32x64, .f32⟩
  | .hbm, ⟨2, _⟩ => ⟨S2048x32x64, .f32⟩
  | .hbm, ⟨3, _⟩ => ⟨S32x2048x64, .f32⟩
  | .hbm, ⟨4, _⟩ => ⟨S_, .f32⟩
  | .hbm, ⟨5, _⟩ => ⟨S32x2048x64, .f32⟩
  | .hbm, ⟨6, _⟩ => ⟨S32x2048x64, .f32⟩
  | .hbm, ⟨7, _⟩ => ⟨S32x2048x64, .f32⟩
  | .hbm, ⟨8, _⟩ => ⟨S32x2048x64, .f32⟩
  | .hbm, ⟨9, _⟩ => ⟨S32x2048x2048, .f32⟩
  | .hbm, ⟨10, _⟩ => ⟨S_, .f32⟩
  | .hbm, ⟨11, _⟩ => ⟨S32x2048, .f32⟩
  | .hbm, ⟨12, _⟩ => ⟨S_, .f32⟩
  | .hbm, ⟨13, _⟩ => ⟨S32x2048, .f32⟩
  | .hbm, ⟨14, _⟩ => ⟨S32x2048, .f32⟩
  | .hbm, ⟨15, _⟩ => ⟨S32x2048x1, .f32⟩
  | .hbm, ⟨16, _⟩ => ⟨S32x2048x2048, .f32⟩
  | .hbm, ⟨17, _⟩ => ⟨S32x2048x2048, .f32⟩
  | .hbm, ⟨18, _⟩ => ⟨S32x2048x2048, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S32x2048x2048, .f32⟩
  | .hbm, ⟨23, _⟩ => ⟨S32x2048x2048, .f32⟩
  | .hbm, ⟨24, _⟩ => ⟨S32x2048x64, .f32⟩
  | .hbm, ⟨25, _⟩ => ⟨S2048x32x64, .f32⟩
  | _, _ => ⟨S2048x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S2048x32x64_S32x2048x64_1_0_2 : S2048x32x64.Transposes [1, 0, 2] S32x2048x64
  bcast_S_S32x2048x64 : S_.BroadcastsInDim S32x2048x64 (![] : Fin 0 → Fin S32x2048x64.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  transposes_S32x2048x64_S2048x32x64_1_0_2 : S32x2048x64.Transposes [1, 0, 2] S2048x32x64
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Softmax.lean ====
/-
  Scaled dot-product attention as one function of the three argument arrays, on the extended reals.

  For a head `h` and a query position `l` the row of scores is `s ↦ ∑ d, (q[l,h,d] · c) · k[s,h,d]` with `c` the
  scale (the word 0x3E000000, one eighth); the attention weights are the softmax of that row — the row shifted by its
  maximum (a fold of `max` from the word 0xFF800000), exponentiated, divided by the sum of the exponentials —, and the
  output at `(l, h, d)` is `∑ s, weight[h,l,s] · v[s,h,d]`. Both programs compute exactly these expressions; no
  law beyond reindexing a finite sum is used, so nothing here needs the inputs to be finite.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Attention

/-- The arguments' shape: position, head, feature. -/
abbrev SLHD : Shape := ⟨3, ![2048, 32, 64]⟩
/-- The weights' shape: head, query position, key position. -/
abbrev SHLS : Shape := ⟨3, ![32, 2048, 2048]⟩

/-- The scale both programs multiply the queries by. -/
def scale : EReal := Ideal.ofBits .f32 0x3E000000#32
/-- The value both maxima start from. -/
def negInf : EReal := Ideal.ofBits .f32 0xFF800000#32

/-- The maximum of a row, folded from `negInf`. -/
def rowMax (f : Fin 2048 → EReal) : EReal := (Finset.univ : Finset (Fin 2048)).fold max negInf f

/-- The softmax of a row at a position. -/
def softmaxRow (f : Fin 2048 → EReal) (s : Fin 2048) : EReal :=
  Ideal.div (Ideal.exp (f s - rowMax f)) (∑ s' : Fin 2048, Ideal.exp (f s' - rowMax f))

/-- Starting the maximum again from `negInf` changes nothing: the fold already dominates its start. -/
theorem max_negInf_rowMax (f : Fin 2048 → EReal) : max negInf (rowMax f) = rowMax f :=
  max_eq_right (by unfold rowMax; rw [Finset.le_fold_max]; exact Or.inl le_rfl)

/-- The score of key position `s` for query position `l` in head `h`. -/
def score (q k : SLHD.Idx → EReal) (h : Fin 32) (l s : Fin 2048) : EReal :=
  ∑ d : Fin 64, (q (ix3 l h d) * scale) * k (ix3 s h d)

/-- The attention weights: the softmax of each row of scores. -/
def weights (q k : SLHD.Idx → EReal) : SHLS.Idx → EReal :=
  fun i => softmaxRow (score q k (i 0) (i 1)) (i 2)

/-- The attention output: each row of weights against the values of its head. -/
def output (q k v : SLHD.Idx → EReal) : SLHD.Idx → EReal :=
  fun i => ∑ s : Fin 2048, softmaxRow (score q k (i 1) (i 0)) s * v (ix3 s (i 1) (i 2))

end Cert.Attention

end
-- ==== Proof.RefSoftmax.lean ====
/-
  The reference program, stage by stage, is the attention specification: its batched product of the scaled,
  re-laid queries with the re-laid keys is the score; its maximum over the key axis (started again from the same
  value, which changes nothing) is the row's maximum; its exponential, sum, quotient are the softmax; its second batched
  product, re-laid, is the output.
-/
import proofs.«145348_j1580547974410_2_alg».proof.Proof.Gen.ReferenceIdeal.Read
import proofs.«145348_j1580547974410_2_alg».proof.Proof.Softmax
import Idealize.ShloMosaic.PureOps.Reduce

noncomputable section

open Idealize.ShloMosaic Idealize.ShloMosaic.ValueIdx

namespace Cert.ReferenceIdeal.RefValue

open Cert.ReferenceIdeal Cert.ReferenceIdeal.Gen Cert.ReferenceIdeal.Read Cert.Attention

variable (q k v : S2048x32x64.Idx → EReal)

/-- The batched product of the scaled queries with the keys is the score. -/
theorem scores_apply (h : Fin 32) (l s : Fin 2048) :
    val_main_v5 (F := Ideal) q k (ix3 h l s) = score q k h l s := by
  rw [val_main_v5_apply]
  unfold score
  refine Finset.sum_congr rfl fun d _ => ?_
  rw [val_main_v2_apply, val_main_v0_apply, val_main_v1_apply, val_main_cst_apply, val_main_v3_apply]
  have e0 : idx_main_v0 (lidx_main_v5 (ix3 h l s) d) = ix3 l h d :=
    funext fun a => Fin.ext (by match a with | ⟨0, _⟩ => rfl | ⟨1, _⟩ => rfl | ⟨2, _⟩ => rfl)
  have e1 : idx_main_v3 (ridx_main_v5 (ix3 h l s) d) = ix3 s h d :=
    funext fun a => Fin.ext (by match a with | ⟨0, _⟩ => rfl | ⟨1, _⟩ => rfl | ⟨2, _⟩ => rfl)
  rw [e0, e1]
  rfl

/-- The reduction by maximum over the key axis is the row's maximum. -/
theorem reduceMax_apply (h : Fin 32) (l : Fin 2048) :
    val_main_v6 (F := Ideal) q k (ix2 h l) = rowMax (score q k h l) := by
  have hred : S32x2048x2048.Reduces [2] S32x2048 := by decide
  unfold val_main_v6
  rw [Host.reduce_eq_fold_single FloatOps.maximumf _ _ reducesTo_S32x2048x2048_S32x2048_d2 hred h_S_ (ix2 h l)]
  have hf : (val_main_v5 (F := Ideal) q k ∘ hred.lift (ix2 h l)) = score q k h l := funext fun s => by
    show val_main_v5 (F := Ideal) q k (hred.lift (ix2 h l) s) = _
    rw [show hred.lift (ix2 h l) s = ix3 h l s from
      funext fun a => Fin.ext (by match a with | ⟨0, _⟩ => rfl | ⟨1, _⟩ => rfl | ⟨2, _⟩ => rfl)]
    exact scores_apply q k h l s
  rw [hf]
  rfl

/-- Taking the maximum with the starting value once more leaves the row's maximum. -/
theorem max_apply (h : Fin 32) (l : Fin 2048) :
    val_main_v8 (F := Ideal) q k (ix2 h l) = rowMax (score q k h l) := by
  rw [val_main_v8_apply, val_main_v7_apply, val_main_cst_1_apply, reduceMax_apply]
  exact max_negInf_rowMax _

/-- The maximum spread back over the key axis. -/
theorem maxBroadcast_apply (h : Fin 32) (l s : Fin 2048) :
    val_main_v10 (F := Ideal) q k (ix3 h l s) = rowMax (score q k h l) := by
  rw [val_main_v10_apply, val_main_v9_apply]
  rw [show idx_main_v9 (idx_main_v10 (ix3 h l s)) = ix2 h l from
    funext fun a => Fin.ext (by match a with | ⟨0, _⟩ => rfl | ⟨1, _⟩ => rfl)]
  exact max_apply q k h l

/-- The exponential of the shifted score. -/
theorem exp_apply (h : Fin 32) (l s : Fin 2048) :
    val_main_v12 (F := Ideal) q k (ix3 h l s) = Ideal.exp (score q k h l s - rowMax (score q k h l)) := by
  rw [val_main_v12_apply, val_main_v11_apply, maxBroadcast_apply, scores_apply]
  rfl

/-- The sum of the exponentials over the key axis. -/
theorem sum_apply (h : Fin 32) (l : Fin 2048) :
    val_main_v13 (F := Ideal) q k (ix2 h l) = ∑ s' : Fin 2048, Ideal.exp (score q k h l s' - rowMax (score q k h l)) := by
  rw [val_main_v13_apply, val_main_cst_2_apply]
  show Ideal.ofBits .f32 0x00000000#32 + _ = _
  rw [Ideal.ofBits_zero_f32, zero_add]
  refine Finset.sum_congr rfl fun s' _ => ?_
  rw [show idx_main_v13 (ix2 h l) s' = ix3 h l s' from
    funext fun a => Fin.ext (by match a with | ⟨0, _⟩ => rfl | ⟨1, _⟩ => rfl | ⟨2, _⟩ => rfl)]
  exact exp_apply q k h l s'

/-- The sum spread back over the key axis. -/
theorem sumBroadcast_apply (h : Fin 32) (l s : Fin 2048) :
    val_main_v15 (F := Ideal) q k (ix3 h l s) = ∑ s' : Fin 2048, Ideal.exp (score q k h l s' - rowMax (score q k h l)) := by
  rw [val_main_v15_apply, val_main_v14_apply]
  rw [show idx_main_v14 (idx_main_v15 (ix3 h l s)) = ix2 h l from
    funext fun a => Fin.ext (by match a with | ⟨0, _⟩ => rfl | ⟨1, _⟩ => rfl)]
  exact sum_apply q k h l

/-- The quotient is the softmax of the row of scores. -/
theorem softmax_apply (h : Fin 32) (l s : Fin 2048) :
    val_main_v16 (F := Ideal) q k (ix3 h l s) = softmaxRow (score q k h l) s := by
  rw [val_main_v16_apply, exp_apply, sumBroadcast_apply]
  rfl

/-- The reference's second result is the attention weights. -/
theorem weights_eq : val_main_v16 (F := Ideal) q k = weights q k := by
  funext i
  obtain ⟨h, l, s, rfl⟩ : ∃ (h : Fin 32) (l s : Fin 2048), i = ix3 h l s := ⟨i 0, i 1, i 2, eq_ix3 i⟩
  exact softmax_apply q k h l s

/-- The second batched product: each row of weights against the values of its head. -/
theorem product_apply (h : Fin 32) (l : Fin 2048) (d : Fin 64) :
    val_main_v17 (F := Ideal) q k v (ix3 h l d) = ∑ s : Fin 2048, softmaxRow (score q k h l) s * v (ix3 s h d) := by
  rw [val_main_v17_apply]
  refine Finset.sum_congr rfl fun s _ => ?_
  rw [val_main_v4_apply]
  rw [show lidx_main_v17 (ix3 h l d) s = ix3 h l s from
      funext fun a => Fin.ext (by match a with | ⟨0, _⟩ => rfl | ⟨1, _⟩ => rfl | ⟨2, _⟩ => rfl),
    show idx_main_v4 (ridx_main_v17 (ix3 h l d) s) = ix3 s h d from
      funext fun a => Fin.ext (by match a with | ⟨0, _⟩ => rfl | ⟨1, _⟩ => rfl | ⟨2, _⟩ => rfl),
    softmax_apply]

/-- The reference's first result is the attention output. -/
theorem output_eq : val_main_v18 (F := Ideal) q k v = output q k v := by
  funext i
  obtain ⟨l, h, d, rfl⟩ : ∃ (l : Fin 2048) (h : Fin 32) (d : Fin 64), i = ix3 l h d := ⟨i 0, i 1, i 2, eq_ix3 i⟩
  rw [val_main_v18_apply]
  rw [show idx_main_v18 (ix3 l h d) = ix3 h l d from
    funext fun a => Fin.ext (by match a with | ⟨0, _⟩ => rfl | ⟨1, _⟩ => rfl | ⟨2, _⟩ => rfl)]
  exact product_apply q k v h l d

end Cert.ReferenceIdeal.RefValue

end
-- ==== Proof.ColumnLayout.lean ====
/-
  Two layout operations of a keep-dims reduction, read at an index: a vector `[a]` cast to the column `[a, 1]`
  reads its operand at the row, and a column `[a, 1]` broadcast to `[a, b]` reads the column at the row,
  whatever the position inside the row.
-/
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.Attention

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attention

end
-- ==== Proof.KernelRows.lean ====
/-
  What the kernel body computes from its three loaded blocks, read at an index.

  From a block of 1024 query rows and the 2048 key rows of one head, the first product gives, at `(r, s)`, the sum over
  the 64 features of query row `r` times key row `s`: the block's scores. The row maximum, the shifted exponential, the row
  sum and the quotient are then the softmax of row `r` of those scores; the second product contracts that row against
  the head's value rows. A change of float format is the identity on the extended reals, and the zero accumulator adds
  nothing.
-/
import proofs.«145348_j1580547974410_2_alg».proof.Proof.Gen.KernelIdeal.Skeleton
import proofs.«145348_j1580547974410_2_alg».proof.Proof.Softmax
import proofs.«145348_j1580547974410_2_alg».proof.Proof.ColumnLayout
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Rows

open Cert.KernelIdeal Cert.KernelIdeal.Gen Cert.Attention

variable (x0 : Vec Ideal S1x1024x64 .bf16) (x1 x2 : Vec Ideal S1x2048x64 .bf16)

/-- The block's score: query row `r` of the block against key row `s`. -/
def blockScore (r : Fin 1024) (s : Fin 2048) : EReal :=
  ∑ d : Fin 64, x0 (ix3 (0 : Fin 1) r d) * x1 (ix3 (0 : Fin 1) s d)

/-! ## The first product: queries against keys, both contracted over their feature axis -/

theorem qk_lhs_0 (i : S1024x2048.Idx) (p : dot_S1024x64_S2048x64_S1024x2048_1_1_0_0_n_n.contr.Idx) :
    (dot_S1024x64_S2048x64_S1024x2048_1_1_0_0_n_n.lhsIdx i p 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem qk_lhs_1 (i : S1024x2048.Idx) (p : dot_S1024x64_S2048x64_S1024x2048_1_1_0_0_n_n.contr.Idx) :
    (dot_S1024x64_S2048x64_S1024x2048_1_1_0_0_n_n.lhsIdx i p 1).val = (p ⟨0, by decide⟩).val :=
  dot_S1024x64_S2048x64_S1024x2048_1_1_0_0_n_n.lhsIdx_val_of_single rfl i p
theorem qk_rhs_0 (i : S1024x2048.Idx) (p : dot_S1024x64_S2048x64_S1024x2048_1_1_0_0_n_n.contr.Idx) :
    (dot_S1024x64_S2048x64_S1024x2048_1_1_0_0_n_n.rhsIdx i p 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem qk_rhs_1 (i : S1024x2048.Idx) (p : dot_S1024x64_S2048x64_S1024x2048_1_1_0_0_n_n.contr.Idx) :
    (dot_S1024x64_S2048x64_S1024x2048_1_1_0_0_n_n.rhsIdx i p 1).val = (p ⟨0, by decide⟩).val :=
  dot_S1024x64_S2048x64_S1024x2048_1_1_0_0_n_n.rhsIdx_val_of_single rfl i p

/-- The scores of the block, as the body computes them. -/
def scoresVec : FVec Ideal S1024x2048 .f32 :=
  matmul dot_S1024x64_S2048x64_S1024x2048_1_1_0_0_n_n none
    (shapeCast S1024x64 x0 shapeCasts_S1x1024x64_S1024x64 : FVec Ideal S1024x64 .bf16)
    (shapeCast S2048x64 x1 shapeCasts_S1x2048x64_S2048x64 : FVec Ideal S2048x64 .bf16)
    (constant (F := Ideal) S1024x2048 .f32 0x00000000#32)

theorem scoresVec_apply (r : Fin 1024) (s : Fin 2048) : scoresVec x0 x1 (ix2 r s) = blockScore x0 x1 r s := by
  unfold scoresVec blockScore
  simp only [matmul]
  rw [Ideal.matmul_constant_zero_apply,
    ← Equiv.sum_comp (contrEquiv1 dot_S1024x64_S2048x64_S1024x2048_1_1_0_0_n_n 64 rfl rfl).symm]
  refine Finset.sum_congr rfl fun d _ => ?_
  have hk := contrEquiv1_symm_val dot_S1024x64_S2048x64_S1024x2048_1_1_0_0_n_n 64 rfl rfl d
  have el : dot_S1024x64_S2048x64_S1024x2048_1_1_0_0_n_n.lhsIdx (ix2 r s)
      ((contrEquiv1 dot_S1024x64_S2048x64_S1024x2048_1_1_0_0_n_n 64 rfl rfl).symm d) = ix2 r d :=
    funext fun a => Fin.ext (by
      match a with
      | ⟨0, _⟩ => exact qk_lhs_0 _ _
      | ⟨1, _⟩ => exact (qk_lhs_1 _ _).trans hk)
  have er : dot_S1024x64_S2048x64_S1024x2048_1_1_0_0_n_n.rhsIdx (ix2 r s)
      ((contrEquiv1 dot_S1024x64_S2048x64_S1024x2048_1_1_0_0_n_n 64 rfl rfl).symm d) = ix2 s d :=
    funext fun a => Fin.ext (by
      match a with
      | ⟨0, _⟩ => exact qk_rhs_0 _ _
      | ⟨1, _⟩ => exact (qk_rhs_1 _ _).trans hk)
  rw [el, er, shapeCast_1ab_ab_apply, shapeCast_1ab_ab_apply]

/-! ## The softmax of each row -/

/-- The rows' maxima. -/
def maxVec : FVec Ideal S1024 .f32 :=
  multiReduction .maximumf [1] S1024 (scoresVec x0 x1) 0xFF800000#32 reduces_S1024x2048_S1024 (.inl rfl) rfl

/-- The exponentials of the shifted scores. -/
def expVec : FVec Ideal S1024x2048 .f32 :=
  exp (subf (scoresVec x0 x1)
    (broadcastTo S1024x2048 (shapeCast S1024x1 (maxVec x0 x1) shapeCasts_S1024_S1024x1) broadcasts_S1024x1_S1024x2048))

/-- The rows' sums of exponentials. -/
def sumVec : FVec Ideal S1024 .f32 :=
  multiReduction .add [1] S1024 (expVec x0 x1) 0x00000000#32 reduces_S1024x2048_S1024 (.inl rfl) rfl

/-- The body's normalized weights are these pieces put together. -/
theorem pay1_eq : k0_pay1 (F := Ideal) x0 x1 = divf (expVec x0 x1)
    (broadcastTo S1024x2048 (shapeCast S1024x1 (sumVec x0 x1) shapeCasts_S1024_S1024x1) broadcasts_S1024x1_S1024x2048) := rfl

theorem lift_row (r : Fin 1024) (s : Fin 2048) : reduces_S1024x2048_S1024.lift (ix1 r) s = ix2 r s :=
  funext fun a => Fin.ext (by match a with | ⟨0, _⟩ => rfl | ⟨1, _⟩ => rfl)

theorem maxVec_apply (r : Fin 1024) : maxVec x0 x1 (ix1 r) = rowMax (blockScore x0 x1 r) := by
  refine (Ideal.multiReduction_maximumf_single (scoresVec x0 x1) 0xFF800000#32 reduces_S1024x2048_S1024 (.inl rfl) rfl (ix1 r)).trans ?_
  have hf : (scoresVec x0 x1 ∘ reduces_S1024x2048_S1024.lift (ix1 r)) = blockScore x0 x1 r :=
    funext fun (s : Fin 2048) => (congrArg (scoresVec x0 x1) (lift_row r s)).trans (scoresVec_apply x0 x1 r s)
  rw [hf]
  rfl

theorem expVec_apply (r : Fin 1024) (s : Fin 2048) :
    expVec x0 x1 (ix2 r s) = Ideal.exp (blockScore x0 x1 r s - rowMax (blockScore x0 x1 r)) := by
  unfold expVec
  show Ideal.exp (scoresVec x0 x1 (ix2 r s) - broadcastTo S1024x2048 _ broadcasts_S1024x1_S1024x2048 (ix2 r s)) = _
  rw [broadcastTo_a1_ab_apply, shapeCast_a_a1_apply, maxVec_apply, scoresVec_apply]

theorem sumVec_apply (r : Fin 1024) :
    sumVec x0 x1 (ix1 r) = ∑ s' : Fin 2048, Ideal.exp (blockScore x0 x1 r s' - rowMax (blockScore x0 x1 r)) := by
  refine (Ideal.multiReduction_add_single (expVec x0 x1) 0x00000000#32 reduces_S1024x2048_S1024 (.inl rfl) rfl (ix1 r)).trans ?_
  exact Finset.sum_congr rfl fun (s' : Fin 2048) _ =>
    (congrArg (expVec x0 x1) (lift_row r s')).trans (expVec_apply x0 x1 r s')

/-- The body's normalized weights at `(r, s)`: the softmax of row `r` of the block's scores. -/
theorem pay1_apply (r : Fin 1024) (s : Fin 2048) :
    k0_pay1 (F := Ideal) x0 x1 (ix2 r s) = softmaxRow (blockScore x0 x1 r) s := by
  rw [pay1_eq]
  show Ideal.div (expVec x0 x1 (ix2 r s)) (broadcastTo S1024x2048 _ broadcasts_S1024x1_S1024x2048 (ix2 r s)) = _
  rw [broadcastTo_a1_ab_apply, shapeCast_a_a1_apply, sumVec_apply, expVec_apply]
  rfl

/-- What the body stores as the block of attention weights. -/
theorem pay2_apply (u : Fin 1) (r : Fin 1024) (s : Fin 2048) :
    k0_pay2 (F := Ideal) x0 x1 (ix3 u r s) = softmaxRow (blockScore x0 x1 r) s := by
  unfold k0_pay2
  show shapeCast S1x1024x2048 (k0_pay1 (F := Ideal) x0 x1) shapeCasts_S1024x2048_S1x1024x2048 (ix3 u r s) = _
  rw [shapeCast_ab_1ab_apply]
  exact pay1_apply x0 x1 r s

/-! ## The second product: weights against values -/

theorem pv_lhs_0 (i : S1024x64.Idx) (p : dot_S1024x2048_S2048x64_S1024x64_1_0_0_1_n_n.contr.Idx) :
    (dot_S1024x2048_S2048x64_S1024x64_1_0_0_1_n_n.lhsIdx i p 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem pv_lhs_1 (i : S1024x64.Idx) (p : dot_S1024x2048_S2048x64_S1024x64_1_0_0_1_n_n.contr.Idx) :
    (dot_S1024x2048_S2048x64_S1024x64_1_0_0_1_n_n.lhsIdx i p 1).val = (p ⟨0, by decide⟩).val :=
  dot_S1024x2048_S2048x64_S1024x64_1_0_0_1_n_n.lhsIdx_val_of_single rfl i p
theorem pv_rhs_0 (i : S1024x64.Idx) (p : dot_S1024x2048_S2048x64_S1024x64_1_0_0_1_n_n.contr.Idx) :
    (dot_S1024x2048_S2048x64_S1024x64_1_0_0_1_n_n.rhsIdx i p 0).val = (p ⟨0, by decide⟩).val :=
  dot_S1024x2048_S2048x64_S1024x64_1_0_0_1_n_n.rhsIdx_val_of_single rfl i p
theorem pv_rhs_1 (i : S1024x64.Idx) (p : dot_S1024x2048_S2048x64_S1024x64_1_0_0_1_n_n.contr.Idx) :
    (dot_S1024x2048_S2048x64_S1024x64_1_0_0_1_n_n.rhsIdx i p 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The weights against the value rows, before the leading unit axis is put back. -/
def outVec : FVec Ideal S1024x64 .f32 :=
  matmul dot_S1024x2048_S2048x64_S1024x64_1_0_0_1_n_n none (truncf .bf16 (k0_pay1 (F := Ideal) x0 x1) bitsLt_bf16_f32)
    (shapeCast S2048x64 x2 shapeCasts_S1x2048x64_S2048x64 : FVec Ideal S2048x64 .bf16) (constant (F := Ideal) S1024x64 .f32 0x00000000#32)

theorem outVec_apply (r : Fin 1024) (d : Fin 64) :
    outVec x0 x1 x2 (ix2 r d) = ∑ s : Fin 2048, softmaxRow (blockScore x0 x1 r) s * x2 (ix3 (0 : Fin 1) s d) := by
  unfold outVec
  simp only [matmul]
  rw [Ideal.matmul_constant_zero_apply,
    ← Equiv.sum_comp (contrEquiv1 dot_S1024x2048_S2048x64_S1024x64_1_0_0_1_n_n 2048 rfl rfl).symm]
  refine Finset.sum_congr rfl fun s _ => ?_
  have hk := contrEquiv1_symm_val dot_S1024x2048_S2048x64_S1024x64_1_0_0_1_n_n 2048 rfl rfl s
  have el : dot_S1024x2048_S2048x64_S1024x64_1_0_0_1_n_n.lhsIdx (ix2 r d)
      ((contrEquiv1 dot_S1024x2048_S2048x64_S1024x64_1_0_0_1_n_n 2048 rfl rfl).symm s) = ix2 r s :=
    funext fun a => Fin.ext (by
      match a with
      | ⟨0, _⟩ => exact pv_lhs_0 _ _
      | ⟨1, _⟩ => exact (pv_lhs_1 _ _).trans hk)
  have er : dot_S1024x2048_S2048x64_S1024x64_1_0_0_1_n_n.rhsIdx (ix2 r d)
      ((contrEquiv1 dot_S1024x2048_S2048x64_S1024x64_1_0_0_1_n_n 2048 rfl rfl).symm s) = ix2 s d :=
    funext fun a => Fin.ext (by
      match a with
      | ⟨0, _⟩ => exact (pv_rhs_0 _ _).trans hk
      | ⟨1, _⟩ => exact pv_rhs_1 _ _)
  rw [el, er, shapeCast_1ab_ab_apply]
  show k0_pay1 (F := Ideal) x0 x1 (ix2 r s) * _ = _
  rw [pay1_apply]

/-- What the body stores as the block of attention output. -/
theorem pay3_apply (u : Fin 1) (r : Fin 1024) (d : Fin 64) :
    k0_pay3 (F := Ideal) x0 x1 x2 (ix3 u r d)
      = ∑ s : Fin 2048, softmaxRow (blockScore x0 x1 r) s * x2 (ix3 (0 : Fin 1) s d) := by
  unfold k0_pay3
  show shapeCast S1x1024x64 (outVec x0 x1 x2) shapeCasts_S1024x64_S1x1024x64 (ix3 u r d) = _
  rw [shapeCast_ab_1ab_apply]
  exact outVec_apply x0 x1 x2 r d

end Cert.KernelIdeal.Rows

end
-- ==== Proof.KernelArrays.lean ====
/-
  From blocks to whole arrays, for the idealized kernel.

  The host lines before the region re-lay the three arguments head-first and scale the queries; a change of float
  format is the identity. At grid point `(h, li)` the query window's block is rows `1024·li …` of head `h` of the scaled
  queries, the key and value windows' blocks are all 2048 rows of head `h`, and the two output windows write rows
  `1024·li …` of head `h`. So what a point writes back is its block of ONE function of the arguments — the attention
  weights, and the attention output laid head-first —, the blocks tile the arrays, and the line after the region
  re-lays the output position-first.
-/
import proofs.«145348_j1580547974410_2_alg».proof.Proof.Gen.KernelIdeal.Frame
import proofs.«145348_j1580547974410_2_alg».proof.Proof.KernelRows
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Attention Cert.KernelIdeal.Rows

variable (m : (ℓ : Loc nD τ sig) → Buf (Elt Ideal) ℓ) (ρ : Dev nD → PrngReg)

theorem hz3 : (![0, 0, 0] : Fin 3 → Nat) = fun _ => 0 := funext fun a => by fin_cases a <;> rfl

/-- The three arguments, as functions of (position, head, feature). -/
abbrev argQ (c : Dev nD) : SLHD.Idx → EReal := m ((c : Thread nD τ).loc main_arg0)
abbrev argK (c : Dev nD) : SLHD.Idx → EReal := m ((c : Thread nD τ).loc main_arg1)
abbrev argV (c : Dev nD) : SLHD.Idx → EReal := m ((c : Thread nD τ).loc main_arg2)

/-! ## The arrays the region finds -/

theorem entry_q (c : Dev nD) : (V m c main_v5 : S32x2048x64.Idx → EReal)
    = truncf .bf16 (mulf (transpose S32x2048x64 [1, 0, 2] (m ((c : Thread nD τ).loc main_arg0)) transposes_S2048x32x64_S32x2048x64_1_0_2)
        (broadcastInDim S32x2048x64 ![] bcast_S_S32x2048x64 (constant (F := Ideal) S_ .f32 0x3E000000#32))) bitsLt_bf16_f32 := by
  show StableHlo.after hostOps0 (fun b => m (c, b)) (Proc.devRef .tc main_v5) = _
  after_results

theorem entry_k (c : Dev nD) : (V m c main_v6 : S32x2048x64.Idx → EReal)
    = (truncf .bf16 (transpose S32x2048x64 [1, 0, 2] (m ((c : Thread nD τ).loc main_arg1)) transposes_S2048x32x64_S32x2048x64_1_0_2) bitsLt_bf16_f32 : FVec Ideal S32x2048x64 .bf16) := by
  show StableHlo.after hostOps0 (fun b => m (c, b)) (Proc.devRef .tc main_v6) = _
  after_results

theorem entry_v (c : Dev nD) : (V m c main_v7 : S32x2048x64.Idx → EReal)
    = (truncf .bf16 (transpose S32x2048x64 [1, 0, 2] (m ((c : Thread nD τ).loc main_arg2)) transposes_S2048x32x64_S32x2048x64_1_0_2) bitsLt_bf16_f32 : FVec Ideal S32x2048x64 .bf16) := by
  show StableHlo.after hostOps0 (fun b => m (c, b)) (Proc.devRef .tc main_v7) = _
  after_results

/-- The re-laid array at (head, position, feature) is the argument at (position, head, feature). -/
theorem relaid_apply (x : S2048x32x64.Idx → EReal) (h : Fin 32) (l : Fin 2048) (d : Fin 64) :
    transpose S32x2048x64 [1, 0, 2] x transposes_S2048x32x64_S32x2048x64_1_0_2 (ix3 h l d) = x (ix3 l h d) :=
  transpose_apply [1, 0, 2] x transposes_S2048x32x64_S32x2048x64_1_0_2 (ix3 h l d) (ix3 l h d) (fun b => match b with
    | ⟨0, _⟩ => rfl
    | ⟨1, _⟩ => rfl
    | ⟨2, _⟩ => rfl)

theorem entry_q_apply (c : Dev nD) (h : Fin 32) (l : Fin 2048) (d : Fin 64) :
    (V m c main_v5 : S32x2048x64.Idx → EReal) (ix3 h l d) = argQ m c (ix3 l h d) * scale := by
  rw [entry_q]
  show transpose S32x2048x64 [1, 0, 2] _ transposes_S2048x32x64_S32x2048x64_1_0_2 (ix3 h l d)
    * broadcastInDim S32x2048x64 ![] bcast_S_S32x2048x64 (constant (F := Ideal) S_ .f32 0x3E000000#32) (ix3 h l d) = _
  rw [relaid_apply, broadcastInDim_apply _ bcast_S_S32x2048x64 _ (ix3 h l d) ix0 (fun a => a.elim0)]
  rfl

theorem entry_k_apply (c : Dev nD) (h : Fin 32) (l : Fin 2048) (d : Fin 64) :
    (V m c main_v6 : S32x2048x64.Idx → EReal) (ix3 h l d) = argK m c (ix3 l h d) := by
  rw [entry_k]
  exact relaid_apply _ h l d

theorem entry_v_apply (c : Dev nD) (h : Fin 32) (l : Fin 2048) (d : Fin 64) :
    (V m c main_v7 : S32x2048x64.Idx → EReal) (ix3 h l d) = argV m c (ix3 l h d) := by
  rw [entry_v]
  exact relaid_apply _ h l d

/-! ## The windows' blocks -/

/-- The printed index maps, decided over the 64 grid points: the query window and both output windows move together,
    the key and value windows follow the head alone, and the indices stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) ≤ 31 ∧ win0_4.index t (1 : Fin 3) ≤ 1 :=
  (by decide +kernel : ∀ t : Fin grid0.N, _)

/-- Every (head, row block) is some point's. -/
theorem idx_onto : ∀ (q0 : Fin 32) (q1 : Fin 2), ∃ t : Fin cfg0.N, win0_4.index t = ![q0.val, q1.val, 0] :=
  (by decide +kernel : ∀ (q0 : Fin 32) (q1 : Fin 2), ∃ t : Fin grid0.N, win0_4.index t = ![q0.val, q1.val, 0])

/-- The query window's block read at a block index is the scaled, re-laid query array at the matching index. -/
theorem qBlock_apply (c : Dev nD) (t : Fin cfg0.N) (x : S1x1024x64.Idx) (k : S32x2048x64.Idx)
    (h0 : (k 0).val = win0_0.index t (0 : Fin 3) * 1 + 1 * (x 0).val)
    (h1 : (k 1).val = win0_0.index t (1 : Fin 3) * 1024 + 1 * (x 1).val)
    (h2 : (k 2).val = win0_0.index t (2 : Fin 3) * 64 + 1 * (x 2).val) :
    (iblk m c 0 t : Vec Ideal S1x1024x64 .bf16) x = (V m c main_v5 : S32x2048x64.Idx → EReal) k := by
  unfold iblk
  rw [View.read_apply]
  show V m c main_v5 _ = V m c main_v5 _
  congr 1
  funext a
  apply Fin.ext
  match a with
  | ⟨0, _⟩ => show win0_0.index t (0 : Fin 3) * 1 + 1 * (x 0).val = (k 0).val; exact h0.symm
  | ⟨1, _⟩ => show win0_0.index t (1 : Fin 3) * 1024 + 1 * (x 1).val = (k 1).val; exact h1.symm
  | ⟨2, _⟩ => show win0_0.index t (2 : Fin 3) * 64 + 1 * (x 2).val = (k 2).val; exact h2.symm

theorem kBlock_apply (c : Dev nD) (t : Fin cfg0.N) (x : S1x2048x64.Idx) (k : S32x2048x64.Idx)
    (h0 : (k 0).val = win0_1.index t (0 : Fin 3) * 1 + 1 * (x 0).val)
    (h1 : (k 1).val = win0_1.index t (1 : Fin 3) * 2048 + 1 * (x 1).val)
    (h2 : (k 2).val = win0_1.index t (2 : Fin 3) * 64 + 1 * (x 2).val) :
    (iblk m c 1 t : Vec Ideal S1x2048x64 .bf16) x = (V m c main_v6 : S32x2048x64.Idx → EReal) k := by
  unfold iblk
  rw [View.read_apply]
  show V m c main_v6 _ = V m c main_v6 _
  congr 1
  funext a
  apply Fin.ext
  match a with
  | ⟨0, _⟩ => show win0_1.index t (0 : Fin 3) * 1 + 1 * (x 0).val = (k 0).val; exact h0.symm
  | ⟨1, _⟩ => show win0_1.index t (1 : Fin 3) * 2048 + 1 * (x 1).val = (k 1).val; exact h1.symm
  | ⟨2, _⟩ => show win0_1.index t (2 : Fin 3) * 64 + 1 * (x 2).val = (k 2).val; exact h2.symm

theorem vBlock_apply (c : Dev nD) (t : Fin cfg0.N) (x : S1x2048x64.Idx) (k : S32x2048x64.Idx)
    (h0 : (k 0).val = win0_2.index t (0 : Fin 3) * 1 + 1 * (x 0).val)
    (h1 : (k 1).val = win0_2.index t (1 : Fin 3) * 2048 + 1 * (x 1).val)
    (h2 : (k 2).val = win0_2.index t (2 : Fin 3) * 64 + 1 * (x 2).val) :
    (iblk m c 2 t : Vec Ideal S1x2048x64 .bf16) x = (V m c main_v7 : S32x2048x64.Idx → EReal) k := by
  unfold iblk
  rw [View.read_apply]
  show V m c main_v7 _ = V m c main_v7 _
  congr 1
  funext a
  apply Fin.ext
  match a with
  | ⟨0, _⟩ => show win0_2.index t (0 : Fin 3) * 1 + 1 * (x 0).val = (k 0).val; exact h0.symm
  | ⟨1, _⟩ => show win0_2.index t (1 : Fin 3) * 2048 + 1 * (x 1).val = (k 1).val; exact h1.symm
  | ⟨2, _⟩ => show win0_2.index t (2 : Fin 3) * 64 + 1 * (x 2).val = (k 2).val; exact h2.symm

/-- At a point whose output blocks sit at head `h` and row block `li`, row `r` of the block's scores is the row of
    scores of head `h` at query position `1024·li + r`. -/
theorem blockScore_eq (c : Dev nD) (t : Fin cfg0.N) (h : Fin 32) (L : Fin 2048) (r : Fin 1024)
    (hh : h.val = win0_4.index t (0 : Fin 3)) (hL : L.val = win0_4.index t (1 : Fin 3) * 1024 + r.val) :
    blockScore (iblk m c 0 t) (iblk m c 1 t) r = score (argQ m c) (argK m c) h L := by
  obtain ⟨a0, a1, a2, b0, b1, b2, -, -, -, -, -, -, -, -, -⟩ := idx_facts t
  funext s
  unfold blockScore score
  refine Finset.sum_congr rfl fun d _ => ?_
  rw [qBlock_apply m c t (ix3 (0 : Fin 1) r d) (ix3 h L d)
      (by show h.val = win0_0.index t (0 : Fin 3) * 1 + 1 * 0; omega)
      (by show L.val = win0_0.index t (1 : Fin 3) * 1024 + 1 * r.val; omega)
      (by show d.val = win0_0.index t (2 : Fin 3) * 64 + 1 * d.val; omega),
    kBlock_apply m c t (ix3 (0 : Fin 1) s d) (ix3 h s d)
      (by show h.val = win0_1.index t (0 : Fin 3) * 1 + 1 * 0; omega)
      (by show s.val = win0_1.index t (1 : Fin 3) * 2048 + 1 * s.val; omega)
      (by show d.val = win0_1.index t (2 : Fin 3) * 64 + 1 * d.val; omega),
    entry_q_apply, entry_k_apply]

/-! ## What a point writes back -/

/-- The attention output laid head-first, as the region's first result array holds it. -/
def outputHeadFirst (q k v : SLHD.Idx → EReal) : S32x2048x64.Idx → EReal :=
  fun i => ∑ s : Fin 2048, softmaxRow (score q k (i 0) (i 1)) s * v (ix3 s (i 0) (i 2))

/-- The stored block of weights at a block index. -/
theorem weightsBlock_at (x0 : Vec Ideal S1x1024x64 .bf16) (x1 : Vec Ideal S1x2048x64 .bf16) (y : S1x1024x2048.Idx) :
    k0_pay2 (F := Ideal) x0 x1 y
      = softmaxRow (blockScore x0 x1 ⟨(y 1).val, (y 1).isLt⟩) ⟨(y 2).val, (y 2).isLt⟩ :=
  (congrArg (k0_pay2 (F := Ideal) x0 x1) (eq_ix3 y)).trans (pay2_apply x0 x1 (y 0) (y 1) (y 2))

/-- The stored block of output at a block index. -/
theorem outputBlock_at (x0 : Vec Ideal S1x1024x64 .bf16) (x1 x2 : Vec Ideal S1x2048x64 .bf16) (y : S1x1024x64.Idx) :
    k0_pay3 (F := Ideal) x0 x1 x2 y
      = ∑ s : Fin 2048, softmaxRow (blockScore x0 x1 ⟨(y 1).val, (y 1).isLt⟩) s * x2 (ix3 (0 : Fin 1) s ⟨(y 2).val, (y 2).isLt⟩) :=
  (congrArg (k0_pay3 (F := Ideal) x0 x1 x2) (eq_ix3 y)).trans (pay3_apply x0 x1 x2 (y 0) (y 1) (y 2))

/-- WHAT POINT `t` WRITES BACK through the weights window is block `t` of the attention weights. -/
theorem flushedWeights_eq (c : Dev nD) (t : Fin cfg0.N) :
    (dats m 0 c).flushed 4 t = ((cfg0.win 4).blk t).view.read (Elt Ideal) (weights (argQ m c) (argK m c)) := by
  show (cfg0.win 4).cut (grid0.coords t) ((dats m 0 c).after 4 t) = _
  rw [after0_4]
  unfold out0_4
  rw [View.canon_unit_zero hz3]
  simp only [View.ld_unit_zero (S := S1x1024x64) hz3, View.ld_unit_zero (S := S1x2048x64) hz3]
  obtain ⟨-, -, -, -, -, -, -, -, -, -, -, -, e2, e0, e1⟩ := idx_facts t
  funext j
  refine (weightsBlock_at _ _ j).trans ?_
  have hj0 : (j 0).val < 1 := (j 0).isLt
  have hj1 : (j 1).val < 1024 := (j 1).isLt
  have hj2 : (j 2).val < 2048 := (j 2).isLt
  obtain ⟨hI, hhI⟩ : ∃ hI : Fin 32, hI.val = win0_4.index t (0 : Fin 3) := ⟨⟨win0_4.index t (0 : Fin 3), by omega⟩, rfl⟩
  obtain ⟨LI, hLI⟩ : ∃ LI : Fin 2048, LI.val = win0_4.index t (1 : Fin 3) * 1024 + (j 1).val := ⟨⟨win0_4.index t (1 : Fin 3) * 1024 + (j 1).val, by omega⟩, rfl⟩
  have hemb : ((cfg0.win 4).blk t).view.emb j = ix3 hI LI ⟨(j 2).val, hj2⟩ := funext fun a => Fin.ext (by
    match a with
    | ⟨0, _⟩ => show win0_4.index t (0 : Fin 3) * 1 + 1 * (j 0).val = hI.val; omega
    | ⟨1, _⟩ => show win0_4.index t (1 : Fin 3) * 1024 + 1 * (j 1).val = LI.val; omega
    | ⟨2, _⟩ => show win0_4.index t (2 : Fin 3) * 2048 + 1 * (j 2).val = (j 2).val; omega)
  show _ = weights (argQ m c) (argK m c) (((cfg0.win 4).blk t).view.emb j)
  rw [hemb, blockScore_eq m c t hI LI ⟨(j 1).val, hj1⟩ hhI hLI]
  rfl

/-- WHAT POINT `t` WRITES BACK through the output window is block `t` of the head-first attention output. -/
theorem flushedOutput_eq (c : Dev nD) (t : Fin cfg0.N) :
    (dats m 0 c).flushed 3 t
      = ((cfg0.win 3).blk t).view.read (Elt Ideal) (outputHeadFirst (argQ m c) (argK m c) (argV m c)) := by
  show (cfg0.win 3).cut (grid0.coords t) ((dats m 0 c).after 3 t) = _
  rw [after0_3]
  unfold out0_3
  rw [View.canon_unit_zero hz3]
  simp only [View.ld_unit_zero (S := S1x1024x64) hz3, View.ld_unit_zero (S := S1x2048x64) hz3]
  obtain ⟨-, -, -, -, -, -, v0, v1, v2, o0, o1, o2, e2, e0, e1⟩ := idx_facts t
  funext j
  refine (outputBlock_at _ _ _ j).trans ?_
  have hj0 : (j 0).val < 1 := (j 0).isLt
  have hj1 : (j 1).val < 1024 := (j 1).isLt
  have hj2 : (j 2).val < 64 := (j 2).isLt
  obtain ⟨hI, hhI⟩ : ∃ hI : Fin 32, hI.val = win0_4.index t (0 : Fin 3) := ⟨⟨win0_4.index t (0 : Fin 3), by omega⟩, rfl⟩
  obtain ⟨LI, hLI⟩ : ∃ LI : Fin 2048, LI.val = win0_4.index t (1 : Fin 3) * 1024 + (j 1).val := ⟨⟨win0_4.index t (1 : Fin 3) * 1024 + (j 1).val, by omega⟩, rfl⟩
  have hemb : ((cfg0.win 3).blk t).view.emb j = ix3 hI LI ⟨(j 2).val, hj2⟩ := funext fun a => Fin.ext (by
    match a with
    | ⟨0, _⟩ => show win0_3.index t (0 : Fin 3) * 1 + 1 * (j 0).val = hI.val; omega
    | ⟨1, _⟩ => show win0_3.index t (1 : Fin 3) * 1024 + 1 * (j 1).val = LI.val; omega
    | ⟨2, _⟩ => show win0_3.index t (2 : Fin 3) * 64 + 1 * (j 2).val = (j 2).val; omega)
  show _ = outputHeadFirst (argQ m c) (argK m c) (argV m c) (((cfg0.win 3).blk t).view.emb j)
  rw [hemb, blockScore_eq m c t hI LI ⟨(j 1).val, hj1⟩ hhI hLI]
  show _ = ∑ s : Fin 2048, softmaxRow (score (argQ m c) (argK m c) hI LI) s * argV m c (ix3 s hI ⟨(j 2).val, hj2⟩)
  refine Finset.sum_congr rfl fun s _ => ?_
  rw [vBlock_apply m c t (ix3 (0 : Fin 1) s ⟨(j 2).val, hj2⟩) (ix3 hI s ⟨(j 2).val, hj2⟩)
      (by show hI.val = win0_2.index t (0 : Fin 3) * 1 + 1 * 0; omega)
      (by show s.val = win0_2.index t (1 : Fin 3) * 2048 + 1 * s.val; omega)
      (by show (j 2).val = win0_2.index t (2 : Fin 3) * 64 + 1 * (j 2).val; omega),
    entry_v_apply]

/-! ## The blocks tile the arrays -/

theorem mem_weightsBlock (t : Fin cfg0.N) (i : S32x2048x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v8_1).slice (win0_4.rect t)).set ↔ _
  rw [View.set_slice_whole, Rect.mem_set_unit]
  exact Iff.rfl

theorem mem_outputBlock (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v8_0).slice (win0_3.rect t)).set ↔ _
  rw [View.set_slice_whole, Rect.mem_set_unit]
  exact Iff.rfl

/-- Every index of the weights array is in the block of the point at its head and its row's block of 1024. -/
theorem cover_weights (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_weightsBlock]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- The same for the head-first output array. -/
theorem cover_output (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  obtain ⟨-, -, -, -, -, -, -, -, -, o0, o1, o2, -, -, -⟩ := idx_facts t
  refine ⟨t, flush0_3 t, ?_⟩
  rw [mem_outputBlock]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## The arrays after the region, and after the line that follows it -/

theorem finalWeights (c : Dev nD) : (dats m 0 c).arrAt 4 cfg0.N = weights (argQ m c) (argK m c) :=
  (dats m 0 c).arrAt_eq_of_cover 4 (weights (argQ m c) (argK m c)) (fun t _ => flushedWeights_eq m c t) cover_weights

theorem finalOutput (c : Dev nD) :
    (dats m 0 c).arrAt 3 cfg0.N = outputHeadFirst (argQ m c) (argK m c) (argV m c) :=
  (dats m 0 c).arrAt_eq_of_cover 3 (outputHeadFirst (argQ m c) (argK m c) (argV m c)) (fun t _ => flushedOutput_eq m c t) cover_output

/-- The line after the region re-lays the head-first output position-first: the attention output. -/
theorem tail_eq (c : Dev nD) :
    Pipeline.afterTail₀ cfgs (dats m) 0 (V0 m) [hostOps1] c main_v9 = output (argQ m c) (argK m c) (argV m c) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8_0)
      = outputHeadFirst (argQ m c) (argK m c) (argV m c) :=
    (Pipeline.withArrays_arr spec0 launch0.win.arr_inj c _ _ 3).trans (finalOutput m c)
  rw [hw]
  funext i
  obtain ⟨l, h, d, rfl⟩ : ∃ (l : Fin 2048) (h : Fin 32) (d : Fin 64), i = ix3 l h d := ⟨i 0, i 1, i 2, eq_ix3 i⟩
  exact transpose_apply [1, 0, 2] _ transposes_S32x2048x64_S2048x32x64_1_0_2 (ix3 l h d) (ix3 h l d) (fun b => match b with
    | ⟨0, _⟩ => rfl
    | ⟨1, _⟩ => rfl
    | ⟨2, _⟩ => rfl)

/-! ## The run, read -/

/-- Every weakly fair execution of the idealized kernel's program terminates with its first result at the attention
    output, its second at the attention weights, and the arguments as launched. -/
theorem run : θ_run defs (onTc (τ := τ) (main (F := Ideal))) ⟨m, fun _ => 0, ρ⟩ fun r => ∀ c : Dev nD,
      r.2.mem ((c.tc : Thread nD τ).loc main_v9) = output (argQ m c) (argK m c) (argV m c)
      ∧ r.2.mem ((c.tc : Thread nD τ).loc main_v8_1) = weights (argQ m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail_eq m c),
      ((h c).1 4).trans (finalWeights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arrays

end
-- ==== Proof.lean ====
/-
  Scaled dot-product attention: the tiled kernel against the plain reference, on the extended reals.

  Both programs re-lay the three arguments head-first and scale the queries by one eighth. The reference then forms, per
  head, the full matrix of scores, its row-wise softmax (the attention weights) and the weights' product with the values,
  and re-lays that product position-first. The kernel does the same 1024 query rows at a time: a grid point (head, row
  block) multiplies its block of scaled queries with all the head's keys, takes the softmax of each row — the whole key
  axis is present, so a row's maximum and sum are complete —, writes the block of weights, multiplies it with the head's
  values and writes the block of output; the blocks tile both result arrays, and the host re-lays the output
  position-first. A change of float format is the identity on the extended reals, a matrix product is a finite sum of
  products however it is tiled, and starting a maximum twice from the same value changes nothing; so each result is ONE
  function of the arguments (Proof/Softmax.lean), which the reference computes stage by stage (Proof/RefSoftmax.lean) and
  the kernel block by block (Proof/KernelRows.lean, Proof/KernelArrays.lean). No step divides out or distributes, so the
  inputs' finiteness is not used. The three frames are the generated ones (the reference's is its generated run with the
  results dropped), and the idealization rewrote nothing, so `preserves` is trivial.
-/
import proofs.«145348_j1580547974410_2_alg».proof.Defs
import proofs.«145348_j1580547974410_2_alg».proof.Proof.Gen.Kernel
import proofs.«145348_j1580547974410_2_alg».proof.Proof.Gen.Kernel.Skeleton
import proofs.«145348_j1580547974410_2_alg».proof.Proof.Gen.Kernel.Launch
import proofs.«145348_j1580547974410_2_alg».proof.Proof.Gen.Kernel.Points
import proofs.«145348_j1580547974410_2_alg».proof.Proof.Gen.Kernel.Frame
import proofs.«145348_j1580547974410_2_alg».proof.Proof.Gen.KernelIdeal
import proofs.«145348_j1580547974410_2_alg».proof.Proof.Gen.KernelIdeal.Skeleton
import proofs.«145348_j1580547974410_2_alg».proof.Proof.Gen.KernelIdeal.Launch
import proofs.«145348_j1580547974410_2_alg».proof.Proof.Gen.KernelIdeal.Points
import proofs.«145348_j1580547974410_2_alg».proof.Proof.Gen.KernelIdeal.Frame
import proofs.«145348_j1580547974410_2_alg».proof.Proof.Gen.ReferenceIdeal
import proofs.«145348_j1580547974410_2_alg».proof.Proof.Gen.ReferenceIdeal.Run
import proofs.«145348_j1580547974410_2_alg».proof.Proof.Gen.ReferenceIdeal.Read
import proofs.«145348_j1580547974410_2_alg».proof.Proof.Gen.Pre_finite_inputs
import proofs.«145348_j1580547974410_2_alg».proof.Proof.Softmax
import proofs.«145348_j1580547974410_2_alg».proof.Proof.RefSoftmax
import proofs.«145348_j1580547974410_2_alg».proof.Proof.KernelRows
import proofs.«145348_j1580547974410_2_alg».proof.Proof.KernelArrays
import Idealize.ShloMosaic.Adequacy
import Idealize.ShloMosaic.Init

noncomputable section

namespace Cert.Proof

open Idealize.ShloMosaic Idealize.SL.Sem Cert.Attention

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the attention output and the attention weights of
    those arguments. -/
theorem algebraic : Cert.algebraic_KernelIdeal_ReferenceIdeal := by
  intro m ρ m' ρ' _ hagree
  refine ⟨fun c => output (Cert.KernelIdeal.Arrays.argQ m c) (Cert.KernelIdeal.Arrays.argK m c) (Cert.KernelIdeal.Arrays.argV m c),
    fun c => weights (Cert.KernelIdeal.Arrays.argQ m c) (Cert.KernelIdeal.Arrays.argK m c),
    Cert.KernelIdeal.Arrays.run m ρ, ?_⟩
  refine (θ_run Cert.ReferenceIdeal.defs _ _).mono (fun _ h c => ?_) (Cert.ReferenceIdeal.Value.run (F := Ideal) m' ρ')
  obtain ⟨hout, hw, ha0, ha1, ha2⟩ := h c
  refine ⟨hout.trans ?_, hw.trans ?_, ha0, ha1, ha2⟩
  · rw [(hagree c).1, (hagree c).2.1, (hagree c).2.2]
    exact (Cert.ReferenceIdeal.Read.val_main_v18_eq _ _ _).trans (Cert.ReferenceIdeal.RefValue.output_eq _ _ _)
  · rw [(hagree c).1, (hagree c).2.1]
    exact (Cert.ReferenceIdeal.Read.val_main_v16_eq _ _).trans (Cert.ReferenceIdeal.RefValue.weights_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
